-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x48 : Shape := ⟨2, ![128, 48]⟩
abbrev S48x40 : Shape := ⟨2, ![48, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x48 : S_.BroadcastsInDim S128x48 (![] : Fin 0 → Fin S128x48.rank)
  reducesTo_S128x48_S_d0_1 : S128x48.ReducesTo [0, 1] S_
  bcast_S_S48x40 : S_.BroadcastsInDim S48x40 (![] : Fin 0 → Fin S48x40.rank)
  reducesTo_S48x40_S_d0_1 : S48x40.ReducesTo [0, 1] S_

variable [Facts]

def fn_part1 {F : FTy → Type} [FloatOps F] (main_v13 : IVec S_ 1) (main_v16 : IVec S48x40 1) : IVec S_ 1 :=
  let main_c_5 : IVec S_ 1 := constantI S_ 1 1#1
  let main_v17 : IVec S_ 1 := (fun x v => Host.reduce IntOp.andi x v reducesTo_S48x40_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x48 .f32) (main_arg5 : FVec F S48x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x48 .f32 := Host.absf main_arg4
  let main_cst_2 : FVec F S_ .f32 := constant S_ .f32 0x7F800000#32
  let main_v10 : FVec F S128x48 .f32 := broadcastInDim S128x48 ![] bcast_S_S128x48 main_cst_2
  let main_v11 : IVec S128x48 1 := cmpf .olt main_v9 main_v10
  let main_c_3 : IVec S_ 1 := constantI S_ 1 1#1
  let main_v12 : IVec S_ 1 := (fun x v => Host.reduce IntOp.andi x v reducesTo_S128x48_S_d0_1 h_S_) main_v11 main_c_3
  let main_v13 : IVec S_ 1 := andi main_v8 main_v12
  let main_v14 : FVec F S48x40 .f32 := Host.absf main_arg5
  let main_cst_4 : FVec F S_ .f32 := constant S_ .f32 0x7F800000#32
  let main_v15 : FVec F S48x40 .f32 := broadcastInDim S48x40 ![] bcast_S_S48x40 main_cst_4
  let main_v16 : IVec S48x40 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x48 : Shape := ⟨2, ![128, 48]⟩
abbrev S48x40 : Shape := ⟨2, ![48, 40]⟩
abbrev S100000x48 : Shape := ⟨2, ![100000, 48]⟩
abbrev S4000x128 : Shape := ⟨2, ![4000, 128]⟩
abbrev S4000x48 : Shape := ⟨2, ![4000, 48]⟩
abbrev S_ : Shape := ⟨0, ![]⟩
abbrev S1600000x1 : Shape := ⟨2, ![1600000, 1]⟩
abbrev S1600000x48 : Shape := ⟨2, ![1600000, 48]⟩
abbrev S100000x40 : Shape := ⟨2, ![100000, 40]⟩
abbrev S4000x40 : Shape := ⟨2, ![4000, 40]⟩
abbrev S1600000x40 : Shape := ⟨2, ![1600000, 40]⟩

abbrev nBuf : Space → Nat
  | .hbm => 42
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x48, .f32⟩
  | .hbm, ⟨5, _⟩ => ⟨S48x40, .f32⟩
  | .hbm, ⟨6, _⟩ => ⟨S100000x48, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x48, .bf16⟩
  | .hbm, ⟨16, _⟩ => ⟨S1600000x48, .f32⟩
  | .hbm, ⟨17, _⟩ => ⟨S1600000x1, .f32⟩
  | .hbm, ⟨18, _⟩ => ⟨S1600000x48, .f32⟩
  | .hbm, ⟨19, _⟩ => ⟨S1600000x48, .f32⟩
  | .hbm, ⟨20, _⟩ => ⟨S_, .f32⟩
  | .hbm, ⟨21, _⟩ => ⟨S100000x48, .f32⟩
  | .hbm, ⟨22, _⟩ => ⟨S1600000x1, .i32⟩
  | .hbm, ⟨23, _⟩ => ⟨S100000x48, .f32⟩
  | .hbm, ⟨24, _⟩ => ⟨S100000x40, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x40, .bf16⟩
  | .hbm, ⟨34, _⟩ => ⟨S1600000x40, .f32⟩
  | .hbm, ⟨35, _⟩ => ⟨S1600000x1, .f32⟩
  | .hbm, ⟨36, _⟩ => ⟨S1600000x40, .f32⟩
  | .hbm, ⟨37, _⟩ => ⟨S1600000x40, .f32⟩
  | .hbm, ⟨38, _⟩ => ⟨S_, .f32⟩
  | .hbm, ⟨39, _⟩ => ⟨S100000x40, .f32⟩
  | .hbm, ⟨40, _⟩ => ⟨S1600000x1, .i32⟩
  | .hbm, ⟨41, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x48, .f32⟩
  | .local _ .vmem, ⟨3, _⟩ => ⟨S4000x48, .bf16⟩
  | .local _ .vmem, ⟨4, _⟩ => ⟨S4000x48, .bf16⟩
  | .local _ .vmem, ⟨5, _⟩ => ⟨S4000x48, .f32⟩
  | .local _ .vmem, ⟨6, _⟩ => ⟨S4000x48, .f32⟩
  | .local _ .vmem, ⟨7, _⟩ => ⟨S48x40, .f32⟩
  | .local _ .vmem, ⟨8, _⟩ => ⟨S4000x40, .bf16⟩
  | .local _ .vmem, ⟨9, _⟩ => ⟨S4000x40, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x48 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S4000x48_S4000x48_0_0 : ∀ a, (![0, 0] : Fin 2 → Nat) a + S4000x48.size a ≤ S4000x48.size a
  h_S4000x48 : 0 < S4000x48.numel
  packedbf16_S4000x48_S4000x48_0_0 : (Rect.unit (s := S4000x48) ![0, 0] S4000x48.size inb_S4000x48_S4000x48_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  shapeCasts_S4000x48_S4000x48 : S4000x48.ShapeCasts S4000x48
  inb_S48x40_S48x40_0_0 : ∀ a, (![0, 0] : Fin 2 → Nat) a + S48x40.size a ≤ S48x40.size a
  h_S48x40 : 0 < S48x40.numel
  inb_S4000x40_S4000x40_0_0 : ∀ a, (![0, 0] : Fin 2 → Nat) a + S4000x40.size a ≤ S4000x40.size a
  h_S4000x40 : 0 < S4000x40.numel
  packedbf16_S4000x40_S4000x40_0_0 : (Rect.unit (s := S4000x40) ![0, 0] S4000x40.size inb_S4000x40_S4000x40_0_0).PackedRows (EltTy.packing .bf16)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  dot_S4000x128_S128x48_S4000x48_1_0_0_1_n_n_wf : DotDims.WF S4000x128 S128x48 S4000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S4000x48_S48x40_S4000x40_1_0_0_1_n_n_wf : DotDims.WF S4000x48 S48x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x48.size a ≤ S100000x48.size a
  hwx0_2 : ∀ i : grid0.Coords, EltTy.bits .bf16 = 32 ∨ (Rect.block (s := S100000x48) S4000x48.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x48.size a ≤ S100000x48.size a
  hwx1_0 : ∀ i : grid1.Coords, EltTy.bits .f32 = 32 ∨ (Rect.block (s := S100000x48) S4000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x40.size a ≤ S48x40.size a
  hwx1_1 : ∀ i : grid1.Coords, EltTy.bits .f32 = 32 ∨ (Rect.block (s := S48x40) S48x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .bf16 = 32 ∨ (Rect.block (s := S100000x40) S4000x40.size (cc1_transform_2 i) (hinb1_2 i)).WholeWords (EltTy.packing .bf16)

variable [Facts₀]

def dot_S4000x128_S128x48_S4000x48_1_0_0_1_n_n : DotDims S4000x128 S128x48 S4000x48 where
  lhsContracting := [1]
  rhsContracting := [0]
  lhsNonContracting := [0]
  rhsNonContracting := [1]
  lhsBatch := []
  rhsBatch := []
  wf := dot_S4000x128_S128x48_S4000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S4000x48_S48x40_S4000x40_1_0_0_1_n_n : DotDims S4000x48 S48x40 S4000x40 where
  lhsContracting := [1]
  rhsContracting := [0]
  lhsNonContracting := [0]
  rhsNonContracting := [1]
  lhsBatch := []
  rhsBatch := []
  wf := dot_S4000x48_S48x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S48x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x48 : Shape := ⟨2, ![128, 48]⟩
abbrev S48x40 : Shape := ⟨2, ![48, 40]⟩
abbrev S100000x48 : Shape := ⟨2, ![100000, 48]⟩
abbrev S_ : Shape := ⟨0, ![]⟩
abbrev S1600000x1 : Shape := ⟨2, ![1600000, 1]⟩
abbrev S1600000x48 : Shape := ⟨2, ![1600000, 48]⟩
abbrev S100000x40 : Shape := ⟨2, ![100000, 40]⟩
abbrev S1600000x40 : Shape := ⟨2, ![1600000, 40]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x48, .f32⟩
  | .hbm, ⟨5, _⟩ => ⟨S48x40, .f32⟩
  | .hbm, ⟨6, _⟩ => ⟨S100000x48, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x48, .f32⟩
  | .hbm, ⟨16, _⟩ => ⟨S1600000x1, .f32⟩
  | .hbm, ⟨17, _⟩ => ⟨S1600000x48, .f32⟩
  | .hbm, ⟨18, _⟩ => ⟨S1600000x48, .f32⟩
  | .hbm, ⟨19, _⟩ => ⟨S_, .f32⟩
  | .hbm, ⟨20, _⟩ => ⟨S100000x48, .f32⟩
  | .hbm, ⟨21, _⟩ => ⟨S1600000x1, .i32⟩
  | .hbm, ⟨22, _⟩ => ⟨S100000x48, .f32⟩
  | .hbm, ⟨23, _⟩ => ⟨S_, .f32⟩
  | .hbm, ⟨24, _⟩ => ⟨S100000x48, .f32⟩
  | .hbm, ⟨25, _⟩ => ⟨S100000x48, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  dot_S100000x128_S128x48_S100000x48_1_0_0_1_n_n_wf : DotDims.WF S100000x128 S128x48 S100000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x40_S100000x40_1_0_0_1_n_n_wf : DotDims.WF S100000x48 S48x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x40_S100000x40_1_0_0_1_n_n : DotDims S100000x48 S48x40 S100000x40 where
  lhsContracting := [1]
  rhsContracting := [0]
  lhsNonContracting := [0]
  rhsNonContracting := [1]
  lhsBatch := []
  rhsBatch := []
  wf := dot_S100000x48_S48x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Spec.lean ====
/-
  The two pure functions the certificate is about, on the extended reals.

  `matProduct X W` is the rows-by-columns product of an `[a, n]` array with an `[n, b]` array: entry `(p, q)` is the
  sum over `k` of `X (p, k) * W (k, q)`. The sum is over an additive commutative monoid, so its value does not depend
  on the order or grouping of its terms; nothing here needs the entries to be finite.
  `relu A` is the entrywise maximum with zero.
-/
import Idealize.ShloMosaic.PureOps.Ideal
import Idealize.ShloMosaic.Lib.ValueIdx

noncomputable section

namespace Cert.Gcn

open Idealize.ShloMosaic Idealize.ShloMosaic.ValueIdx

/-- Entry `(p, q)` of `X · W`: the sum over the contracted coordinate `k` of `X (p, k) * W (k, q)`. -/
def matProduct {a n b : ℕ} (X : (⟨2, ![a, n]⟩ : Shape).Idx → EReal) (W : (⟨2, ![n, b]⟩ : Shape).Idx → EReal) :
    (⟨2, ![a, b]⟩ : Shape).Idx → EReal :=
  fun j => ∑ k : Fin n, X (ix2 (j 0) k) * W (ix2 k (j 1))

/-- The entrywise maximum with zero. -/
def relu {S : Shape} (A : S.Idx → EReal) : S.Idx → EReal := fun i => max (A i) 0

theorem matProduct_apply {a n b : ℕ} (X : (⟨2, ![a, n]⟩ : Shape).Idx → EReal) (W : (⟨2, ![n, b]⟩ : Shape).Idx → EReal)
    (j : (⟨2, ![a, b]⟩ : Shape).Idx) : matProduct X W j = ∑ k : Fin n, X (ix2 (j 0) k) * W (ix2 k (j 1)) := rfl

theorem relu_apply {S : Shape} (A : S.Idx → EReal) (i : S.Idx) : relu A i = max (A i) 0 := rfl

end Cert.Gcn

end
-- ==== Proof.Payloads.lean ====
/-
  What each matrix-product body stores, read at an index, at the ideal values.

  The first body loads a `[4000, 128]` block of rows `x` and the whole `[128, 48]` weight `w`, changes both to a
  narrower float format, multiplies them on the matrix unit into a zero accumulator, and narrows the result. On the
  extended reals a change of format is the identity, so the entry `(p, q)` it stores is the sum over `k` of
  `x (p, k) * w (k, q)`: the block of rows times the weight.
  The second body first takes the entrywise maximum of its `[4000, 48]` block with zero and then does the same with the
  `[48, 40]` weight, so it stores `relu x` times the weight.
-/
import proofs.«116366_j86844238725530_2_alg».proof.Proof.Gen.KernelIdeal.Skeleton
import proofs.«116366_j86844238725530_2_alg».proof.Proof.LibRowColDot
import proofs.«116366_j86844238725530_2_alg».proof.Proof.Spec
import Idealize.ShloMosaic.Lib.Pipeline.Value
import Idealize.ShloMosaic.PureOps.Ideal.Laws

noncomputable section

namespace Cert.KernelIdeal.Payloads

open Cert.KernelIdeal Cert.KernelIdeal.Gen Cert.Gcn
open Idealize.ShloMosaic Idealize.ShloMosaic.ValueIdx

/-! ## The kept coordinates of the two contractions

Each contraction keeps the rows of its left operand and the columns of its right operand: at an output index `j`
the left operand is read in row `j 0` and the right operand in column `j 1`, whatever the contracted coordinate. -/

theorem rows_lhs0 (j : S4000x48.Idx) (q : dot_S4000x128_S128x48_S4000x48_1_0_0_1_n_n.contr.Idx) :
    (dot_S4000x128_S128x48_S4000x48_1_0_0_1_n_n.lhsIdx j q 0).val = (j 0).val := by
  unfold DotDims.lhsIdx
  rw [dif_neg (show ¬(0 : Fin S4000x128.rank) ∈ dot_S4000x128_S128x48_S4000x48_1_0_0_1_n_n.lhsBatch by decide),
    dif_pos (show (0 : Fin S4000x128.rank) ∈ dot_S4000x128_S128x48_S4000x48_1_0_0_1_n_n.lhsNonContracting by decide)]
  rfl

theorem cols_rhs0 (j : S4000x48.Idx) (q : dot_S4000x128_S128x48_S4000x48_1_0_0_1_n_n.contr.Idx) :
    (dot_S4000x128_S128x48_S4000x48_1_0_0_1_n_n.rhsIdx j q 1).val = (j 1).val := by
  unfold DotDims.rhsIdx
  rw [dif_neg (show ¬(1 : Fin S128x48.rank) ∈ dot_S4000x128_S128x48_S4000x48_1_0_0_1_n_n.rhsBatch by decide),
    dif_pos (show (1 : Fin S128x48.rank) ∈ dot_S4000x128_S128x48_S4000x48_1_0_0_1_n_n.rhsNonContracting by decide)]
  rfl

theorem rows_lhs1 (j : S4000x40.Idx) (q : dot_S4000x48_S48x40_S4000x40_1_0_0_1_n_n.contr.Idx) :
    (dot_S4000x48_S48x40_S4000x40_1_0_0_1_n_n.lhsIdx j q 0).val = (j 0).val := by
  unfold DotDims.lhsIdx
  rw [dif_neg (show ¬(0 : Fin S4000x48.rank) ∈ dot_S4000x48_S48x40_S4000x40_1_0_0_1_n_n.lhsBatch by decide),
    dif_pos (show (0 : Fin S4000x48.rank) ∈ dot_S4000x48_S48x40_S4000x40_1_0_0_1_n_n.lhsNonContracting by decide)]
  rfl

theorem cols_rhs1 (j : S4000x40.Idx) (q : dot_S4000x48_S48x40_S4000x40_1_0_0_1_n_n.contr.Idx) :
    (dot_S4000x48_S48x40_S4000x40_1_0_0_1_n_n.rhsIdx j q 1).val = (j 1).val := by
  unfold DotDims.rhsIdx
  rw [dif_neg (show ¬(1 : Fin S48x40.rank) ∈ dot_S4000x48_S48x40_S4000x40_1_0_0_1_n_n.rhsBatch by decide),
    dif_pos (show (1 : Fin S48x40.rank) ∈ dot_S4000x48_S48x40_S4000x40_1_0_0_1_n_n.rhsNonContracting by decide)]
  rfl

/-! ## The two stored values -/

/-- The first body stores its block of rows times the weight. -/
theorem stored0_apply (x : Vec Ideal S4000x128 .f32) (w : Vec Ideal S128x48 .f32) (j : S4000x48.Idx) :
    k0_pay1 (F := Ideal) x w j = matProduct x w j := by
  unfold k0_pay1
  refine (Cert.RowColDot.matmul_rowcol (a := 4000) (n := 128) (b := 48) dot_S4000x128_S128x48_S4000x48_1_0_0_1_n_n
    rfl rfl rfl rfl rows_lhs0 cols_rhs0 none _ _ j).trans ?_
  rfl

/-- The second body stores the entrywise maximum of its block with zero, times the weight. -/
theorem stored1_apply (x : Vec Ideal S4000x48 .f32) (w : Vec Ideal S48x40 .f32) (j : S4000x40.Idx) :
    k1_pay1 (F := Ideal) x w j = matProduct (relu x) w j := by
  unfold k1_pay1
  refine (Cert.RowColDot.matmul_rowcol (a := 4000) (n := 48) (b := 40) dot_S4000x48_S48x40_S4000x40_1_0_0_1_n_n
    rfl rfl rfl rfl rows_lhs1 cols_rhs1 none _ _ j).trans ?_
  refine Finset.sum_congr rfl fun k _ => ?_
  show max (shapeCast S4000x48 x shapeCasts_S4000x48_S4000x48 (ix2 (j 0) k)) (Ideal.ofBits .f32 0x00000000#32) * w (ix2 k (j 1))
    = max (x (ix2 (j 0) k)) 0 * w (ix2 k (j 1))
  rw [shapeCast_self, Ideal.ofBits_zero_f32]

end Cert.KernelIdeal.Payloads

end
-- ==== Proof.RegionProducts.lean ====
/-
  What each matrix-product region leaves in its output array, as one function of the arrays it is entered with.

  Each region walks 25 grid points. At point `t` it stages rows `4000 t … 4000 t + 3999` of its left array, the whole
  weight, and writes back rows `4000 t … 4000 t + 3999` of its output. Entry `(p, q)` of the product depends only on row
  `p` of the left array and column `q` of the weight, so what point `t` writes back is block `t` of the ONE array
  `matProduct X W` (for the second region, `matProduct (relu X) W`). The 25 blocks tile the 100000 rows (row `r` is in block
  `r / 4000`), so after the region the output array is that product.
-/
import proofs.«116366_j86844238725530_2_alg».proof.Proof.Gen.KernelIdeal.Frame
import proofs.«116366_j86844238725530_2_alg».proof.Proof.Payloads
import Idealize.ShloMosaic.Lib.Pipeline.Value

set_option maxRecDepth 16384

noncomputable section

namespace Cert.KernelIdeal.Products

open Cert.KernelIdeal Cert.KernelIdeal.Gen Cert.KernelIdeal.Payloads Cert.Gcn
open Idealize.ShloMosaic Idealize.ShloMosaic.TcCoe Idealize.ShloMosaic.ValueIdx
open Idealize.SL Idealize.SL.Sem
open Idealize.ShloMosaic.Pipeline (Dat Cfg Window)

-- the buffer contents a region is entered with
variable (V : (c : Dev nD) → (b : Ref sig .tc) → Buf (Elt Ideal) ((c : Thread nD τ).loc b))

theorem zeros2 : (![0, 0] : Fin 2 → Nat) = fun _ => 0 := funext fun a => by fin_cases a <;> rfl

/-! ## The first region: rows of `X` times `W` -/

/-- The block indices of the three windows at every point: the left array and the output move down the rows with
    the point, the weight stays. -/
theorem maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the left array and the weight. -/
theorem flushed0 (c : Dev nD) (t : Fin cfg0.N) :
    (dat0 V c).flushed 2 t
      = ((cfg0.win 2).blk t).view.read (Elt Ideal) (matProduct (V c main_arg0) (V c main_arg4)) := by
  show (cfg0.win 2).cut (grid0.coords t) ((dat0 V c).after 2 t) = _
  rw [after0_2]
  unfold out0_2
  rw [View.canon_unit_zero zeros2]
  simp only [View.ld_unit_zero (S := S4000x128) zeros2, View.ld_unit_zero (S := S128x48) zeros2]
  obtain ⟨e0, e1, e2, e3, e4, e5⟩ := maps0 t
  funext j
  show k0_pay1 (iblk0 V c 0 t) (iblk0 V c 1 t) j
    = matProduct (V c main_arg0) (V c main_arg4) (((cfg0.win 2).blk t).view.emb j)
  refine (stored0_apply (iblk0 V c 0 t) (iblk0 V c 1 t) j).trans ?_
  rw [matProduct_apply, matProduct_apply]
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg _ ?_
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 128 + 1 * k.val = k.val; omega
  have hw : iblk0 V c 1 t (ix2 k (j 1)) = V c main_arg4 (ix2 k ((((cfg0.win 2).blk t).view.emb j) 1)) := by
    show V c main_arg4 (((cfg0.win 1).blk t).view.emb (ix2 k (j 1))) = _
    refine congrArg _ ?_
    funext a; apply Fin.ext
    match a with
    | ⟨0, _⟩ => show win0_1.index t (0 : Fin 2) * 128 + 1 * k.val = k.val; omega
    | ⟨1, _⟩ => show win0_1.index t (1 : Fin 2) * 48 + 1 * (j 1).val = win0_2.index t (1 : Fin 2) * 48 + 1 * (j 1).val; omega
  rw [hx, hw]

/-- An index of the output array is in point `t`'s block iff each coordinate is in the block's range on its axis. -/
theorem mem_block0 (t : Fin cfg0.N) (i : S100000x48.Idx) :
    i ∈ ((cfg0.win 2).blk t).view.set ↔ ∀ a : Fin 2, win0_2.index t a * S4000x48.size a ≤ (i a).val
      ∧ (i a).val < win0_2.index t a * S4000x48.size a + S4000x48.size a := by
  show i ∈ ((View.whole main_v0).slice (win0_2.rect t)).set ↔ _
  rw [View.set_slice_whole, Rect.mem_set_unit]
  exact Iff.rfl

/-- Every index of the output array is in the block of the point its row falls in. -/
theorem cover0 (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : (i 0).val / 4000 < cfg0.N := by rw [show cfg0.N = 25 from N_0]; omega
  obtain ⟨e0, e1, e2, e3, e4, e5⟩ := maps0 ⟨(i 0).val / 4000, hN⟩
  refine ⟨⟨(i 0).val / 4000, hN⟩, flush0_2 _, ?_⟩
  rw [mem_block0]
  intro a
  match a with
  | ⟨0, _⟩ =>
    show win0_2.index ⟨(i 0).val / 4000, hN⟩ (0 : Fin 2) * 4000 ≤ (i 0).val
      ∧ (i 0).val < win0_2.index ⟨(i 0).val / 4000, hN⟩ (0 : Fin 2) * 4000 + 4000
    rw [e4]; show (i 0).val / 4000 * 4000 ≤ (i 0).val ∧ (i 0).val < (i 0).val / 4000 * 4000 + 4000; omega
  | ⟨1, _⟩ =>
    show win0_2.index ⟨(i 0).val / 4000, hN⟩ (1 : Fin 2) * 48 ≤ (i 1).val
      ∧ (i 1).val < win0_2.index ⟨(i 0).val / 4000, hN⟩ (1 : Fin 2) * 48 + 48
    rw [e5]; omega

/-- After the first region its output array is the product of the left array and the weight it was entered with. -/
theorem final0 (c : Dev nD) : (dat0 V c).arrAt 2 cfg0.N = matProduct (V c main_arg0) (V c main_arg4) :=
  (dat0 V c).arrAt_eq_of_cover 2 _ (fun t _ => flushed0 V c t) cover0

/-! ## The second region: rows of `relu A` times `W` -/

theorem maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the left array, clamped below at zero, and the weight. -/
theorem flushed1 (c : Dev nD) (t : Fin cfg1.N) :
    (dat1 V c).flushed 2 t
      = ((cfg1.win 2).blk t).view.read (Elt Ideal) (matProduct (relu (V c main_v14)) (V c main_arg5)) := by
  show (cfg1.win 2).cut (grid1.coords t) ((dat1 V c).after 2 t) = _
  rw [after1_2]
  unfold out1_2
  rw [View.canon_unit_zero zeros2]
  simp only [View.ld_unit_zero (S := S4000x48) zeros2, View.ld_unit_zero (S := S48x40) zeros2]
  obtain ⟨e0, e1, e2, e3, e4, e5⟩ := maps1 t
  funext j
  show k1_pay1 (iblk1 V c 0 t) (iblk1 V c 1 t) j
    = matProduct (relu (V c main_v14)) (V c main_arg5) (((cfg1.win 2).blk t).view.emb j)
  refine (stored1_apply (iblk1 V c 0 t) (iblk1 V c 1 t) j).trans ?_
  rw [matProduct_apply, matProduct_apply]
  refine Finset.sum_congr rfl fun k _ => ?_
  have hx : relu (iblk1 V c 0 t) (ix2 (j 0) k) = relu (V c main_v14) (ix2 ((((cfg1.win 2).blk t).view.emb j) 0) k) := by
    rw [relu_apply, relu_apply]
    refine congrArg (fun z : EReal => max z 0) ?_
    show V c main_v14 (((cfg1.win 0).blk t).view.emb (ix2 (j 0) k)) = V c main_v14 _
    refine congrArg _ ?_
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 48 + 1 * k.val = k.val; omega
  have hw : iblk1 V c 1 t (ix2 k (j 1)) = V c main_arg5 (ix2 k ((((cfg1.win 2).blk t).view.emb j) 1)) := by
    show V c main_arg5 (((cfg1.win 1).blk t).view.emb (ix2 k (j 1))) = _
    refine congrArg _ ?_
    funext a; apply Fin.ext
    match a with
    | ⟨0, _⟩ => show win1_1.index t (0 : Fin 2) * 48 + 1 * k.val = k.val; omega
    | ⟨1, _⟩ => show win1_1.index t (1 : Fin 2) * 40 + 1 * (j 1).val = win1_2.index t (1 : Fin 2) * 40 + 1 * (j 1).val; omega
  rw [hx, hw]

theorem mem_block1 (t : Fin cfg1.N) (i : S100000x40.Idx) :
    i ∈ ((cfg1.win 2).blk t).view.set ↔ ∀ a : Fin 2, win1_2.index t a * S4000x40.size a ≤ (i a).val
      ∧ (i a).val < win1_2.index t a * S4000x40.size a + S4000x40.size a := by
  show i ∈ ((View.whole main_v15).slice (win1_2.rect t)).set ↔ _
  rw [View.set_slice_whole, Rect.mem_set_unit]
  exact Iff.rfl

theorem cover1 (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : (i 0).val / 4000 < cfg1.N := by rw [show cfg1.N = 25 from N_1]; omega
  obtain ⟨e0, e1, e2, e3, e4, e5⟩ := maps1 ⟨(i 0).val / 4000, hN⟩
  refine ⟨⟨(i 0).val / 4000, hN⟩, flush1_2 _, ?_⟩
  rw [mem_block1]
  intro a
  match a with
  | ⟨0, _⟩ =>
    show win1_2.index ⟨(i 0).val / 4000, hN⟩ (0 : Fin 2) * 4000 ≤ (i 0).val
      ∧ (i 0).val < win1_2.index ⟨(i 0).val / 4000, hN⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, hN⟩ (1 : Fin 2) * 40 ≤ (i 1).val
      ∧ (i 1).val < win1_2.index ⟨(i 0).val / 4000, hN⟩ (1 : Fin 2) * 40 + 40
    rw [e5]; omega

/-- After the second region its output array is the product of its left array, clamped below at zero, and the weight. -/
theorem final1 (c : Dev nD) : (dat1 V c).arrAt 2 cfg1.N = matProduct (relu (V c main_v14)) (V c main_arg5) :=
  (dat1 V c).arrAt_eq_of_cover 2 _ (fun t _ => flushed1 V c t) cover1

end Cert.KernelIdeal.Products

end
-- ==== Proof.HostStretches.lean ====
/-
  The two stretches of host operations of the idealized kernel program, each as ONE function of what it reads.

  After each matrix-product region the program does the same thing with the product's rows: it takes, for every edge,
  the row of the table at the edge's source (a negative source counts from the end), scales that row by the edge's
  value, and adds it into the row of a zero array at the edge's destination. `aggregate48` and `aggregate40` are that
  chain of operations on a 48-column and on a 40-column table. The chain is carried whole: nothing here looks inside
  the gather or the scatter-add.

  Reading the buffer contents at the segment boundaries back through the fold:
  the array the second region is entered with is `aggregate48` of the first region's output, and the program's result is
  `aggregate40` of the second region's output, the index and value arrays being the launch memory's throughout (no
  operation and no region writes an argument).
-/
import proofs.«116366_j86844238725530_2_alg».proof.Proof.Gen.KernelIdeal.Frame
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo
open Idealize.SL Idealize.SL.Sem

variable {F : FTy → Type} [FloatOps F]

/-- Gather the table's rows at the edges' sources, scale each by its edge's value, add into the destinations'
    rows of a zero array: 48 columns. -/
def aggregate48 (tbl : (⟨S100000x48, .bf16⟩ : BufTy).Contents (Elt F)) (src dst : (⟨S1600000, .i32⟩ : BufTy).Contents (Elt F))
    (vals : (⟨S1600000, .f32⟩ : BufTy).Contents (Elt F)) : (⟨S100000x48, .f32⟩ : BufTy).Contents (Elt F) :=
  Host.scatterAdd scatter_S100000x48_S1600000x1_S1600000x48_1_0_0_1
    (broadcastInDim S100000x48 ![] bcast_S_S100000x48 (constant S_ .f32 0x00000000#32))
    (broadcastInDim S1600000x1 ![0] bcast_S1600000_S1600000x1_0 dst)
    (mulf (extf .f32 (Host.gather gather_S100000x48_S1600000x1_S1600000x48_1_0_n_n_0_1_148 tbl
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))) bitsLt_bf16_f32)
      (broadcastInDim S1600000x48 ![0, 1] bcast_S1600000x1_S1600000x48_0_1
        (broadcastInDim S1600000x1 ![0] bcast_S1600000_S1600000x1_0 vals)))

/-- The same chain on a 40-column table. -/
def aggregate40 (tbl : (⟨S100000x40, .bf16⟩ : BufTy).Contents (Elt F)) (src dst : (⟨S1600000, .i32⟩ : BufTy).Contents (Elt F))
    (vals : (⟨S1600000, .f32⟩ : BufTy).Contents (Elt F)) : (⟨S100000x40, .f32⟩ : BufTy).Contents (Elt F) :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (mulf (extf .f32 (Host.gather gather_S100000x40_S1600000x1_S1600000x40_1_0_n_n_0_1_140 tbl
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))) bitsLt_bf16_f32)
      (broadcastInDim S1600000x40 ![0, 1] bcast_S1600000x1_S1600000x40_0_1
        (broadcastInDim S1600000x1 ![0] bcast_S1600000_S1600000x1_0 vals)))

variable (m : (ℓ : Loc nD τ sig) → Buf (Elt F) ℓ) (ρ : Dev nD → PrngReg)

/-! ## The first stretch, from the first region's exit contents -/

/-- The array the second region is entered with: the first stretch's chain on the first region's exit contents. -/
theorem entry1_v14 (c : Dev nD) : W2 m ρ c (Proc.devRef .tc main_v14)
    = aggregate48 (W1 m ρ c (Proc.devRef .tc main_v0)) (W1 m ρ c (Proc.devRef .tc main_arg1))
        (W1 m ρ c (Proc.devRef .tc main_arg2)) (W1 m ρ c (Proc.devRef .tc main_arg3)) := by
  show StableHlo.after hostOps1 (W1 m ρ c) (Proc.devRef .tc main_v14) = _
  unfold aggregate48
  after_results

/-- The first stretch writes no argument. -/
theorem entry1_arg5 (c : Dev nD) : W2 m ρ c (Proc.devRef .tc main_arg5) = W1 m ρ c (Proc.devRef .tc main_arg5) := by
  show StableHlo.after hostOps1 (W1 m ρ c) (Proc.devRef .tc main_arg5) = _
  after_results
theorem entry1_arg1 (c : Dev nD) : W2 m ρ c (Proc.devRef .tc main_arg1) = W1 m ρ c (Proc.devRef .tc main_arg1) := by
  show StableHlo.after hostOps1 (W1 m ρ c) (Proc.devRef .tc main_arg1) = _
  after_results
theorem entry1_arg2 (c : Dev nD) : W2 m ρ c (Proc.devRef .tc main_arg2) = W1 m ρ c (Proc.devRef .tc main_arg2) := by
  show StableHlo.after hostOps1 (W1 m ρ c) (Proc.devRef .tc main_arg2) = _
  after_results
theorem entry1_arg3 (c : Dev nD) : W2 m ρ c (Proc.devRef .tc main_arg3) = W1 m ρ c (Proc.devRef .tc main_arg3) := by
  show StableHlo.after hostOps1 (W1 m ρ c) (Proc.devRef .tc main_arg3) = _
  after_results

/-! ## The second stretch, from the second region's exit contents -/

/-- The program's result: the second stretch's chain on the second region's exit contents. -/
theorem result_v29 (c : Dev nD) : W4 m ρ c (Proc.devRef .tc main_v29)
    = aggregate40 (W3 m ρ c (Proc.devRef .tc main_v15)) (W3 m ρ c (Proc.devRef .tc main_arg1))
        (W3 m ρ c (Proc.devRef .tc main_arg2)) (W3 m ρ c (Proc.devRef .tc main_arg3)) := by
  show StableHlo.after hostOps2 (W3 m ρ c) (Proc.devRef .tc main_v29) = _
  unfold aggregate40
  after_results

/-! ## The regions write only their output arrays -/

/-- An array that is none of the first region's three keeps its launch contents across it. -/
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg5 (c : Dev nD) : W1 m ρ c (Proc.devRef .tc main_arg5) = m ((c : Thread nD τ).loc main_arg5) :=
  W1_of_ne m ρ c main_arg5 (by decide)

/-- An array that is none of the second region's three leaves it as it entered, which is as launched. -/
theorem exit1_arg1 (c : Dev nD) : W3 m ρ c (Proc.devRef .tc main_arg1) = m ((c : Thread nD τ).loc main_arg1) :=
  (W3_of_ne m ρ c main_arg1 (by decide)).trans ((entry1_arg1 m ρ c).trans (exit0_arg1 m ρ c))
theorem exit1_arg2 (c : Dev nD) : W3 m ρ c (Proc.devRef .tc main_arg2) = m ((c : Thread nD τ).loc main_arg2) :=
  (W3_of_ne m ρ c main_arg2 (by decide)).trans ((entry1_arg2 m ρ c).trans (exit0_arg2 m ρ c))
theorem exit1_arg3 (c : Dev nD) : W3 m ρ c (Proc.devRef .tc main_arg3) = m ((c : Thread nD τ).loc main_arg3) :=
  (W3_of_ne m ρ c main_arg3 (by decide)).trans ((entry1_arg3 m ρ c).trans (exit0_arg3 m ρ c))

end Cert.KernelIdeal.Stretches

end
-- ==== Proof.KernelValue.lean ====
/-
  The idealized kernel program's result as one function of its six argument arrays.

  `twoLayers X src dst vals W₁ W₂` is two rounds of "multiply by a weight, then aggregate along the edges", with the
  entrywise maximum with zero between them:
    `aggregate40 (matProduct (relu (aggregate48 (matProduct X W₁) src dst vals)) W₂) src dst vals`.
  The program computes exactly this: each region leaves the matrix product of what it was entered with (the second one
  of the array clamped below at zero), each host stretch is the aggregation chain, and no argument array is ever written,
  so every read of an argument along the way reads the launch memory.
-/
import proofs.«116366_j86844238725530_2_alg».proof.Proof.KernelRun
import proofs.«116366_j86844238725530_2_alg».proof.Proof.RegionProducts
import proofs.«116366_j86844238725530_2_alg».proof.Proof.HostStretches

set_option maxRecDepth 16384

noncomputable section

namespace Cert.KernelIdeal.Result

open Cert.KernelIdeal Cert.KernelIdeal.Gen Cert.KernelIdeal.Products Cert.KernelIdeal.Stretches Cert.Gcn
open Idealize.ShloMosaic Idealize.ShloMosaic.TcCoe
open Idealize.SL Idealize.SL.Sem

/-- Two rounds of weight product and edge aggregation, the entrywise maximum with zero between them. -/
def twoLayers (X : (⟨S100000x128, .f32⟩ : BufTy).Contents (Elt Ideal)) (src dst : (⟨S1600000, .i32⟩ : BufTy).Contents (Elt Ideal))
    (vals : (⟨S1600000, .f32⟩ : BufTy).Contents (Elt Ideal)) (W₁ : (⟨S128x48, .f32⟩ : BufTy).Contents (Elt Ideal))
    (W₂ : (⟨S48x40, .f32⟩ : BufTy).Contents (Elt Ideal)) : (⟨S100000x40, .f32⟩ : BufTy).Contents (Elt Ideal) :=
  aggregate40 (F := Ideal) (matProduct (relu (S := S100000x48) (aggregate48 (F := Ideal) (matProduct X W₁) src dst vals)) W₂) src dst vals

variable (m : (ℓ : Loc nD τ sig) → Buf (Elt Ideal) ℓ) (ρ : Dev nD → PrngReg)

/-- The first region's output array at its exit: the features times the first weight. -/
theorem exit0_v0 (c : Dev nD) : W1 m ρ c (Proc.devRef .tc main_v0)
    = matProduct (m ((c : Thread nD τ).loc main_arg0)) (m ((c : Thread nD τ).loc main_arg4)) :=
  (W1_arr m ρ c 2).trans (final0 (V0 m ρ) c)

/-- The second region's output array at its exit: what it was entered with, clamped below at zero, times the weight
    it was entered with. -/
theorem exit1_v15 (c : Dev nD) : W3 m ρ c (Proc.devRef .tc main_v15)
    = matProduct (relu (S := S100000x48) (W2 m ρ c (Proc.devRef .tc main_v14))) (W2 m ρ c (Proc.devRef .tc main_arg5)) :=
  (W3_arr m ρ c 2).trans (final1 (V2 m ρ) c)

/-- The last boundary's contents at the result buffer are `twoLayers` of the launch memory's argument arrays. -/
theorem result_eq (c : Dev nD) : W4 m ρ c (Proc.devRef .tc main_v29)
    = twoLayers (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [result_v29, exit1_arg1, exit1_arg2, exit1_arg3, exit1_v15, entry1_arg5, exit0_arg5, entry1_v14,
    exit0_arg1, exit0_arg2, exit0_arg3, exit0_v0]
  rfl

/-- Every weakly fair execution of the idealized kernel program terminates without a fault, with its result at
    `twoLayers` of the argument arrays and the argument arrays unchanged. -/
theorem run : θ_run defs (onTc (τ := τ) (main (F := Ideal))) ⟨m, fun _ => 0, ρ⟩ (fun r => ∀ c : Dev nD,
      r.2.mem ((c.tc : Thread nD τ).loc main_v29)
        = twoLayers (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.RunValue.run (F := Ideal) m ρ)

end Cert.KernelIdeal.Result

end
-- ==== Proof.RefValue.lean ====
/-
  The idealized reference's result is the same function of the six argument arrays.

  The reference multiplies the features by the first weight with the host's matrix product, runs the aggregation
  chain, takes the entrywise maximum with a broadcast zero, multiplies by the second weight and runs the chain again.
  On the extended reals the host's matrix product has entry `(p, q)` equal to the sum over `k` of the left operand at
  `(p, k)` times the right at `(k, q)`, which is `matProduct`; the broadcast zero is `0` at every index, so the maximum
  with it is `relu`. The aggregation chain is operation for operation the one the kernel program runs (the kernel's
  change of float format after its gather is the identity here), so the composed term is `twoLayers`.
-/
import proofs.«116366_j86844238725530_2_alg».proof.Proof.Gen.ReferenceIdeal.Run
import proofs.«116366_j86844238725530_2_alg».proof.Proof.Gen.ReferenceIdeal.Read
import proofs.«116366_j86844238725530_2_alg».proof.Proof.LibRowColDot
import proofs.«116366_j86844238725530_2_alg».proof.Proof.KernelValue

set_option maxRecDepth 16384

noncomputable section

namespace Cert.ReferenceIdeal.RefValue

open Cert.ReferenceIdeal Cert.ReferenceIdeal.Gen Cert.Gcn
open Idealize.ShloMosaic Idealize.ShloMosaic.ValueIdx

/-- The host's product of the features and the first weight is `matProduct`. -/
theorem hostProduct0 (X : (⟨S100000x128, .f32⟩ : BufTy).Contents (Elt Ideal)) (W : (⟨S128x48, .f32⟩ : BufTy).Contents (Elt Ideal)) :
    Host.dotGeneral (F := Ideal) (φ₁ := .f32) (φ₂ := .f32) dot_S100000x128_S128x48_S100000x48_1_0_0_1_n_n none X W = matProduct X W :=
  funext fun j => Cert.RowColDot.hostDot_rowcol (a := 100000) (n := 128) (b := 48) dot_S100000x128_S128x48_S100000x48_1_0_0_1_n_n
    rfl rfl rfl rfl Cert.ReferenceIdeal.Read.lhs_main_v0_0 Cert.ReferenceIdeal.Read.rhs_main_v0_1 none X W j

/-- The broadcast zero is `0` at every index. -/
theorem zeros_apply (i : S100000x48.Idx) :
    broadcastInDim S100000x48 ![] bcast_S_S100000x48 (constant (F := Ideal) S_ .f32 0x00000000#32) i = 0 := by
  rw [broadcastInDim_apply _ bcast_S_S100000x48 _ i (fun a => a.elim0) (fun a => a.elim0)]
  exact Ideal.ofBits_zero_f32

/-- The host's product of an array clamped below at the broadcast zero and the second weight is `matProduct` of its
    `relu`. -/
theorem hostProduct1 (A : (⟨S100000x48, .f32⟩ : BufTy).Contents (Elt Ideal)) (W : (⟨S48x40, .f32⟩ : BufTy).Contents (Elt Ideal)) :
    Host.dotGeneral (F := Ideal) (φ₁ := .f32) (φ₂ := .f32) dot_S100000x48_S48x40_S100000x40_1_0_0_1_n_n none
        (maximumf (F := Ideal) A (broadcastInDim S100000x48 ![] bcast_S_S100000x48 (constant (F := Ideal) S_ .f32 0x00000000#32))) W
      = matProduct (relu (S := S100000x48) A) W := by
  funext j
  refine (Cert.RowColDot.hostDot_rowcol (a := 100000) (n := 48) (b := 40) dot_S100000x48_S48x40_S100000x40_1_0_0_1_n_n
    rfl rfl rfl rfl Cert.ReferenceIdeal.Read.lhs_main_v15_0 Cert.ReferenceIdeal.Read.rhs_main_v15_1 none _ W j).trans ?_
  rw [matProduct_apply]
  refine Finset.sum_congr rfl fun k _ => ?_
  rw [relu_apply]
  refine congrArg (fun z : EReal => z * W (ix2 k (j 1))) ?_
  show max (A (ix2 (j 0) k)) (broadcastInDim S100000x48 ![] bcast_S_S100000x48 (constant (F := Ideal) S_ .f32 0x00000000#32) (ix2 (j 0) k))
    = max (A (ix2 (j 0) k)) 0
  rw [zeros_apply]

/-- The reference's composed term, over any six arrays, is `twoLayers` of them: the two host products are
    `matProduct` (of the features, and of the aggregated array clamped below at zero), and what remains on both sides
    is the same aggregation chain. -/
theorem result_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x48, .f32⟩ : BufTy).Contents (Elt Ideal))
    (x5 : (⟨S48x40, .f32⟩ : BufTy).Contents (Elt Ideal)) :
    Host.scatterAdd (F := Ideal) scatter_S100000x40_S1600000x1_S1600000x40_1_0_0_1
      (broadcastInDim S100000x40 ![] bcast_S_S100000x40 (constant (F := Ideal) S_ .f32 0x00000000#32))
      (broadcastInDim S1600000x1 ![0] bcast_S1600000_S1600000x1_0 x2)
      (mulf (F := Ideal)
        (Host.gather gather_S100000x40_S1600000x1_S1600000x40_1_0_n_n_0_1_140
          (Host.dotGeneral (F := Ideal) (φ₁ := .f32) (φ₂ := .f32) dot_S100000x48_S48x40_S100000x40_1_0_0_1_n_n none
            (maximumf (F := Ideal)
              (Host.scatterAdd (F := Ideal) scatter_S100000x48_S1600000x1_S1600000x48_1_0_0_1
                (broadcastInDim S100000x48 ![] bcast_S_S100000x48 (constant (F := Ideal) S_ .f32 0x00000000#32))
                (broadcastInDim S1600000x1 ![0] bcast_S1600000_S1600000x1_0 x2)
                (mulf (F := Ideal)
                  (Host.gather gather_S100000x48_S1600000x1_S1600000x48_1_0_n_n_0_1_148
                    (Host.dotGeneral (F := Ideal) (φ₁ := .f32) (φ₂ := .f32) dot_S100000x128_S128x48_S100000x48_1_0_0_1_n_n none x0 x4)
                    (broadcastInDim S1600000x1 ![0] bcast_S1600000_S1600000x1_0
                      (select
                        (cmpi .slt x1 (broadcastInDim S1600000 ![] bcast_S_S1600000 (constantI S_ 32 0#32)))
                        (addi x1 (broadcastInDim S1600000 ![] bcast_S_S1600000 (constantI S_ 32 100000#32)))
                        x1)))
                  (broadcastInDim S1600000x48 ![0, 1] bcast_S1600000x1_S1600000x48_0_1
                    (broadcastInDim S1600000x1 ![0] bcast_S1600000_S1600000x1_0 x3))))
              (broadcastInDim S100000x48 ![] bcast_S_S100000x48 (constant (F := Ideal) S_ .f32 0x00000000#32)))
            x5)
          (broadcastInDim S1600000x1 ![0] bcast_S1600000_S1600000x1_0
            (select
              (cmpi .slt x1 (broadcastInDim S1600000 ![] bcast_S_S1600000 (constantI S_ 32 0#32)))
              (addi x1 (broadcastInDim S1600000 ![] bcast_S_S1600000 (constantI S_ 32 100000#32)))
              x1)))
        (broadcastInDim S1600000x40 ![0, 1] bcast_S1600000x1_S1600000x40_0_1
          (broadcastInDim S1600000x1 ![0] bcast_S1600000_S1600000x1_0 x3)))
      = Cert.KernelIdeal.Result.twoLayers x0 x1 x2 x3 x4 x5 := by
  rw [hostProduct0, hostProduct1]
  rfl

end Cert.ReferenceIdeal.RefValue

end
-- ==== Proof.lean ====
/-
  A two-layer graph convolution: the Pallas program against its jnp reference, equal on the extended reals.

  Both programs compute, from node features `X : [100000, 128]`, an edge list (`src`, `dst : [1600000]`, values
  `vals : [1600000]`) and weights `W₁ : [128, 48]`, `W₂ : [48, 40]`,

      out = A · (relu (A · (X · W₁)) · W₂),      (A · T)[d] = Σ over edges e with dst e = d of vals e · T[src e],

  where the product with the adjacency `A` is spelt "gather the rows at the sources, scale, scatter-add into the
  destinations". The kernel program does each dense product `· W` in a region of 25 grid points, 4000 rows per point, on
  the matrix unit with operands narrowed to a shorter float format, and the second region clamps its input at zero
  before multiplying; the reference does each product as one host contraction and the clamp as a host maximum.

  On the extended reals a change of float format is the identity, and a matrix product, whether the matrix unit's
  into a zero accumulator or the host's, has entry `(p, q)` equal to the sum over `k` of left `(p, k)` times right
  `(k, q)`. A row block of the product depends only on the same row block of the left operand, and the 25 blocks tile
  the rows, so each region leaves the whole product (Proof/RegionProducts.lean). The aggregation along the edges is
  the same chain of host operations in both programs and is carried as one function, never opened
  (Proof/HostStretches.lean). Hence both results are the one function `twoLayers` of the six arguments
  (Proof/KernelValue.lean, Proof/RefValue.lean). Only the commutative-monoid structure of the sums is used: no
  cancellation and no distributivity, so the finiteness of the inputs is never needed.

  The three frames are the generated ones (the reference's is its generated run with the result dropped), and the
  idealization rewrote nothing, so `preserves` is `True`.
-/
import proofs.«116366_j86844238725530_2_alg».proof.Defs
import proofs.«116366_j86844238725530_2_alg».proof.Proof.Gen.Kernel
import proofs.«116366_j86844238725530_2_alg».proof.Proof.Gen.Kernel.Frame
import proofs.«116366_j86844238725530_2_alg».proof.Proof.Gen.KernelIdeal
import proofs.«116366_j86844238725530_2_alg».proof.Proof.Gen.KernelIdeal.Frame
import proofs.«116366_j86844238725530_2_alg».proof.Proof.Gen.ReferenceIdeal
import proofs.«116366_j86844238725530_2_alg».proof.Proof.Gen.ReferenceIdeal.Run
import proofs.«116366_j86844238725530_2_alg».proof.Proof.Gen.ReferenceIdeal.Read
import proofs.«116366_j86844238725530_2_alg».proof.Proof.Gen.Pre_finite_inputs
import proofs.«116366_j86844238725530_2_alg».proof.Proof.KernelValue
import proofs.«116366_j86844238725530_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with their result at `twoLayers` of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
